-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x64 .f32) (main_arg1 : IVec S2x1600000 32) (main_arg2 : FVec F S64x64 .f32) (main_arg3 : FVec F S64 .f32) (main_arg4 : FVec F S64 .f32) (main_arg5 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S10000x64 : Shape := ⟨2, ![10000, 64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S10000 : Shape := ⟨1, ![10000]⟩
abbrev S10000x1 : Shape := ⟨2, ![10000, 1]⟩

abbrev nBuf : Space → Nat
  | .hbm => 67
  | .vmem => 12
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S100000x64, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S1x64, .f32⟩
  | .hbm, ⟨65, _⟩ => ⟨S1x64, .f32⟩
  | .hbm, ⟨66, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S10000x64, .f32⟩
  | .local _ .vmem, ⟨11, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  reduces_S10000x64_S10000 : S10000x64.Reduces [1] S10000
  shapeCasts_S10000_S10000x1 : S10000.ShapeCasts S10000x1
  broadcasts_S10000x1_S10000x64 : S10000x1.Broadcasts S10000x64
  dot_S10000x64_S64x64_S10000x64_1_0_0_1_n_n_wf : DotDims.WF S10000x64 S64x64 S10000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S100000x64.size a
  hwx1_4 : ∀ i : grid1.Coords, EltTy.bits .f32 = 32 ∨ (Rect.block (s := S100000x64) S10000x64.size (cc1_transform_4 i) (hinb1_4 i)).WholeWords (EltTy.packing .f32)

variable [Facts₀]

def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x1 : Shape := ⟨2, ![100000, 1]⟩

abbrev nBuf : Space → Nat
  | .hbm => 98
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S100000x64, .f32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S_, .f32⟩
  | .hbm, ⟨70, _⟩ => ⟨S100000, .f32⟩
  | .hbm, ⟨71, _⟩ => ⟨S100000x1, .f32⟩
  | .hbm, ⟨72, _⟩ => ⟨S_, .f32⟩
  | .hbm, ⟨73, _⟩ => ⟨S100000x1, .f32⟩
  | .hbm, ⟨74, _⟩ => ⟨S100000x1, .f32⟩
  | .hbm, ⟨75, _⟩ => ⟨S100000x64, .f32⟩
  | .hbm, ⟨76, _⟩ => ⟨S100000x64, .f32⟩
  | .hbm, ⟨77, _⟩ => ⟨S100000x64, .f32⟩
  | .hbm, ⟨78, _⟩ => ⟨S_, .f32⟩
  | .hbm, ⟨79, _⟩ => ⟨S100000, .f32⟩
  | .hbm, ⟨80, _⟩ => ⟨S100000x1, .f32⟩
  | .hbm, ⟨81, _⟩ => ⟨S_, .f32⟩
  | .hbm, ⟨82, _⟩ => ⟨S100000x1, .f32⟩
  | .hbm, ⟨83, _⟩ => ⟨S100000x1, .f32⟩
  | .hbm, ⟨84, _⟩ => ⟨S100000x64, .f32⟩
  | .hbm, ⟨85, _⟩ => ⟨S100000x64, .f32⟩
  | .hbm, ⟨86, _⟩ => ⟨S_, .f32⟩
  | .hbm, ⟨87, _⟩ => ⟨S100000x1, .f32⟩
  | .hbm, ⟨88, _⟩ => ⟨S100000x1, .f32⟩
  | .hbm, ⟨89, _⟩ => ⟨S100000x1, .f32⟩
  | .hbm, ⟨90, _⟩ => ⟨S100000x64, .f32⟩
  | .hbm, ⟨91, _⟩ => ⟨S100000x64, .f32⟩
  | .hbm, ⟨92, _⟩ => ⟨S1x64, .f32⟩
  | .hbm, ⟨93, _⟩ => ⟨S100000x64, .f32⟩
  | .hbm, ⟨94, _⟩ => ⟨S100000x64, .f32⟩
  | .hbm, ⟨95, _⟩ => ⟨S1x64, .f32⟩
  | .hbm, ⟨96, _⟩ => ⟨S100000x64, .f32⟩
  | .hbm, ⟨97, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_v56 : Ref sig .tc := ⟨.hbm, 80, rfl⟩
abbrev main_cst_12 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_13 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  dot_S100000x64_S64x64_S100000x64_1_0_0_1_n_n_wf : DotDims.WF S100000x64 S64x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KernelRun.lean ====
/-
  The idealized kernel's run, with its result array named.

  The program is two pipelined regions with host operations between them: the first region writes `h = x · W` block by
  block, the host operations aggregate `h` over the graph's edges, and the second region normalises the aggregate row by
  row. Every weakly fair execution of it terminates, nothing faulting, with the result array at the contents the second
  region's write-backs leave — the last boundary's valuation read at the result's buffer — and the six arguments as
  launched. The run is the library's launch of the program's segments, over the same segments, proof data and thread
  states as the frame; only what is read off the final state is more: the result's buffer beside the arguments'.
-/
import proofs.«135590_j37769942401557_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array ends at the last boundary's contents, the arguments as launched. -/
theorem run_named : θ_run defs (onTc (τ := τ) (main (F := F))) ⟨m, fun _ => 0, ρ⟩ (fun r => ∀ c : Dev nD,
      r.2.mem ((c.tc : Thread nD τ).loc main_v47) = W5 m ρ c (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v47 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)

/-- The last boundary's contents at the result's buffer are what the second region's write-backs leave. -/
theorem result_eq (c : Dev nD) :
    W5 m ρ c (Proc.devRef .tc main_v47) = (dat1 (V4 m ρ) c).arrAt 4 cfg1.N :=
  W5_arr m ρ c 4

end Cert.KernelIdeal.Run

end
-- ==== Proof.LibMatDot.lean ====
/-
  A plain matrix product read at an index.

  The dimension numbers of `[a, K] × [K, b] → [a, b]` — contract the left operand's axis 1 with the right operand's axis 0, no
  batch axis — are those of the product `l · r`. On the extended reals the product, read at `(p, q)`, is the sum over `k` of
  `l (p, k) · r (k, q)`: row `p` of the left operand against column `q` of the right one.
-/
import Idealize.ShloMosaic.PureOps.Ideal.Laws
import Idealize.ShloMosaic.Lib.ValueIdx

noncomputable section

namespace Cert.Lib

open Idealize.ShloMosaic Idealize.ShloMosaic.ValueIdx
open scoped BigOperators

variable {a K b : ℕ}

/-- The dimension numbers of the product of rows with columns `[a, K] × [K, b] → [a, b]`, over any witness of their
    well-formedness. -/
abbrev matDot (wf : DotDims.WF ⟨2, ![a, K]⟩ ⟨2, ![K, b]⟩ ⟨2, ![a, b]⟩ [1] [0] [0] [1] [] []) :
    DotDims ⟨2, ![a, K]⟩ ⟨2, ![K, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, K]⟩ ⟨2, ![K, b]⟩ ⟨2, ![a, b]⟩ [1] [0] [0] [1] [] [])

/-- Off the contracted axis the left operand is read at the result's row, -/
theorem matDot_lhs_row (i : (⟨2, ![a, b]⟩ : Shape).Idx) (κ : (matDot wf).contr.Idx) :
    ((matDot wf).lhsIdx i κ 0).val = (i 0).val := by
  unfold DotDims.lhsIdx
  rw [dif_neg (show ¬(0 : Fin (Shape.rank ⟨2, ![a, K]⟩)) ∈ (matDot wf).lhsBatch from List.not_mem_nil),
    dif_pos (show (0 : Fin (Shape.rank ⟨2, ![a, K]⟩)) ∈ (matDot wf).lhsNonContracting from List.mem_singleton.mpr rfl)]
  rfl

/-- and the right operand at the result's column. -/
theorem matDot_rhs_col (i : (⟨2, ![a, b]⟩ : Shape).Idx) (κ : (matDot wf).contr.Idx) :
    ((matDot wf).rhsIdx i κ 1).val = (i 1).val := by
  unfold DotDims.rhsIdx
  rw [dif_neg (show ¬(1 : Fin (Shape.rank ⟨2, ![K, b]⟩)) ∈ (matDot wf).rhsBatch from List.not_mem_nil),
    dif_pos (show (1 : Fin (Shape.rank ⟨2, ![K, b]⟩)) ∈ (matDot wf).rhsNonContracting from List.mem_singleton.mpr rfl)]
  rfl

/-- At result index `(p, q)` and contraction position `k` the left operand is read at `(p, k)`. -/
theorem matDot_lhsIdx (p : Fin a) (q : Fin b) (k : Fin K) :
    (matDot wf).lhsIdx (ix2 p q) ((contrEquiv1 (matDot wf) K rfl rfl).symm k) = ix2 p k :=
  funext fun ax => Fin.ext (by
    match ax with
    | ⟨0, _⟩ => exact matDot_lhs_row wf _ _
    | ⟨1, _⟩ =>
      exact ((matDot wf).lhsIdx_val_of_single rfl _ _).trans (contrEquiv1_symm_val (matDot wf) K rfl rfl k))

/-- … and the right operand at `(k, q)`. -/
theorem matDot_rhsIdx (p : Fin a) (q : Fin b) (k : Fin K) :
    (matDot wf).rhsIdx (ix2 p q) ((contrEquiv1 (matDot wf) K rfl rfl).symm k) = ix2 k q :=
  funext fun ax => Fin.ext (by
    match ax with
    | ⟨0, _⟩ =>
      exact ((matDot wf).rhsIdx_val_of_single rfl _ _).trans (contrEquiv1_symm_val (matDot wf) K rfl rfl k)
    | ⟨1, _⟩ => exact matDot_rhs_col wf _ _)

/-- The contraction of a product of rows with columns at `(p, q)`, re-indexed by the contracted coordinate. -/
theorem matDot_sum {φ₁ φ₂ : FTy} (l : FVec Ideal ⟨2, ![a, K]⟩ φ₁) (r : FVec Ideal ⟨2, ![K, b]⟩ φ₂) (p : Fin a) (q : Fin b) :
    (∑ k : (matDot wf).contr.Idx, l ((matDot wf).lhsIdx (ix2 p q) k) * r ((matDot wf).rhsIdx (ix2 p q) k))
      = ∑ k : Fin K, l (ix2 p k) * r (ix2 k q) := by
  rw [← Equiv.sum_comp (contrEquiv1 (matDot wf) K rfl rfl).symm]
  refine Finset.sum_congr rfl fun k _ => ?_
  rw [matDot_lhsIdx, matDot_rhsIdx]

/-- A `tpu.matmul` of rows with columns at `(p, q)`: the accumulator's entry plus the row-by-column sum. -/
theorem matmul_plain_apply {φ₁ φ₂ : FTy} (prec : Option ContractPrecision) (l : FVec Ideal ⟨2, ![a, K]⟩ φ₁)
    (r : FVec Ideal ⟨2, ![K, b]⟩ φ₂) (acc : FVec Ideal ⟨2, ![a, b]⟩ .f32) (p : Fin a) (q : Fin b) :
    FloatOps.matmul (matDot wf) prec l r acc (ix2 p q) = acc (ix2 p q) + ∑ k : Fin K, l (ix2 p k) * r (ix2 k q) := by
  rw [Ideal.matmul_apply, matDot_sum]

/-- Into the zero accumulator: the row-by-column sum alone. -/
theorem matmul_plain_zero_apply {φ₁ φ₂ : FTy} (prec : Option ContractPrecision) (l : FVec Ideal ⟨2, ![a, K]⟩ φ₁)
    (r : FVec Ideal ⟨2, ![K, b]⟩ φ₂) (p : Fin a) (q : Fin b) :
    FloatOps.matmul (matDot wf) prec l r (constant ⟨2, ![a, b]⟩ .f32 0x00000000#32) (ix2 p q)
      = ∑ k : Fin K, l (ix2 p k) * r (ix2 k q) := by
  rw [Ideal.matmul_constant_zero_apply, matDot_sum]

/-- The host's `dot_general` of rows with columns at `(p, q)`: the same sum. -/
theorem dotGeneral_plain_apply {φ₁ φ₂ : FTy} (prec : Option ContractPrecision) (sched : HostSchedule)
    (l : FVec Ideal ⟨2, ![a, K]⟩ φ₁) (r : FVec Ideal ⟨2, ![K, b]⟩ φ₂) (p : Fin a) (q : Fin b) :
    FloatOps.dotGeneral (matDot wf) prec sched l r (ix2 p q) = ∑ k : Fin K, l (ix2 p k) * r (ix2 k q) := by
  rw [Ideal.dotGeneral_apply, matDot_sum]

end Cert.Lib

end
-- ==== Proof.RowNorm.lean ====
/-
  One row's layer normalisation, and a product of rows with columns, on the extended reals.

  For a row `a` of 64 aggregated features, a bias `b`, a scale `g` and a shift `s`: the activated row is
  `v k = max (a k + b k) 0`; its mean is `μ = (∑ k, v k) / 64`; its centred entries are `v k - μ`; its variance is
  `σ² = (∑ k, (v k - μ)²) / 64`; and the normalised entry `q` is `(v q - μ) · (σ² + ε)^(-1/2) · g q + s q`.
  The three constants stay the float words both programs write: `0.0`, `64.0` and `ε`, the f32 nearest to `1e-5`;
  the same word on both sides is never evaluated. Nothing here needs an entry to be finite: the two programs apply the
  same operations to the same row, and only the order of a sum differs.
-/
import Idealize.ShloMosaic.PureOps.Ideal.Laws
import Idealize.ShloMosaic.Lib.ValueIdx

noncomputable section

namespace Cert.Spec

open Idealize.ShloMosaic Idealize.ShloMosaic.ValueIdx
open scoped BigOperators

/-- The words `0.0`, `64.0` and `ε`. -/
abbrev w0 : EReal := Ideal.ofBits .f32 0x00000000#32
abbrev w64 : EReal := Ideal.ofBits .f32 0x42800000#32
abbrev wEps : EReal := Ideal.ofBits .f32 0x3727C5AC#32

/-- The activated row: bias added, negative entries cut to zero. -/
def act (a b : Fin 64 → EReal) (k : Fin 64) : EReal := max (a k + b k) w0

/-- A row's mean. -/
def mean (v : Fin 64 → EReal) : EReal := Ideal.div (∑ k : Fin 64, v k) w64

/-- A row's entries less its mean. -/
def cen (v : Fin 64 → EReal) (k : Fin 64) : EReal := v k - mean v

/-- A row's variance: the mean of its centred entries' squares. -/
def var (v : Fin 64 → EReal) : EReal := Ideal.div (∑ k : Fin 64, cen v k * cen v k) w64

/-- The normalised entry `q` of the row `a` under bias `b`, scale `g` and shift `s`. -/
def normRow (a b g s : Fin 64 → EReal) (q : Fin 64) : EReal :=
  cen (act a b) q * Ideal.rsqrt (var (act a b) + wEps) * g q + s q

/-- An `[R, 64]` array normalised row by row; bias, scale and shift are `[1, 64]` arrays. -/
def normRows {R : ℕ} (agg : (⟨2, ![R, 64]⟩ : Shape).Idx → EReal) (b g s : (⟨2, ![1, 64]⟩ : Shape).Idx → EReal) :
    (⟨2, ![R, 64]⟩ : Shape).Idx → EReal :=
  fun i => normRow (fun k => agg (ix2 (i 0) k)) (fun k => b (ix2 (0 : Fin 1) k)) (fun k => g (ix2 (0 : Fin 1) k))
    (fun k => s (ix2 (0 : Fin 1) k)) (i 1)

theorem normRows_apply {R : ℕ} (agg : (⟨2, ![R, 64]⟩ : Shape).Idx → EReal) (b g s : (⟨2, ![1, 64]⟩ : Shape).Idx → EReal)
    (p : Fin R) (q : Fin 64) :
    normRows agg b g s (ix2 p q) = normRow (fun k => agg (ix2 p k)) (fun k => b (ix2 (0 : Fin 1) k))
      (fun k => g (ix2 (0 : Fin 1) k)) (fun k => s (ix2 (0 : Fin 1) k)) q := rfl

/-- An `[R, 64]` array of rows times a `[64, 64]` array of columns: entry `(p, q)` is row `p` against column `q`. -/
def matProd {R : ℕ} (x : (⟨2, ![R, 64]⟩ : Shape).Idx → EReal) (w : (⟨2, ![64, 64]⟩ : Shape).Idx → EReal) :
    (⟨2, ![R, 64]⟩ : Shape).Idx → EReal :=
  fun i => ∑ k : Fin 64, x (ix2 (i 0) k) * w (ix2 k (i 1))

theorem matProd_apply {R : ℕ} (x : (⟨2, ![R, 64]⟩ : Shape).Idx → EReal) (w : (⟨2, ![64, 64]⟩ : Shape).Idx → EReal)
    (p : Fin R) (q : Fin 64) : matProd x w (ix2 p q) = ∑ k : Fin 64, x (ix2 p k) * w (ix2 k q) := rfl

end Cert.Spec

end
-- ==== Proof.RegionProduct.lean ====
/-
  The first region: the array `h = x · W`.

  The region walks ten grid points. Point `t` stages rows `10000·t … 10000·t + 9999` of `x` and the whole of `W`, multiplies
  them (the two operands pass through bf16, which changes nothing on the extended reals) into a zero accumulator, and
  writes the `10000 × 64` product back as rows `10000·t …` of the result. An entry `(p, q)` of a block's product is row `p`
  of the block against column `q` of `W`; row `p` of block `t` is row `10000·t + p` of `x`; so each block written back is
  the same block of the whole product, and the ten blocks cover the result's `100000` rows. Whatever the buffers hold when
  the region is entered, the result array ends at the whole product of the two input arrays as entered.
-/
import proofs.«135590_j37769942401557_1_alg».proof.Proof.Gen.KernelIdeal.Frame
import proofs.«135590_j37769942401557_1_alg».proof.Proof.LibMatDot
import proofs.«135590_j37769942401557_1_alg».proof.Proof.RowNorm
import Idealize.ShloMosaic.Lib.Pipeline.Value

noncomputable section

namespace Cert.KernelIdeal.Product

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The body's product at entry `(p, q)`: row `p` of the staged rows against column `q` of the staged weights. -/
theorem pay_apply (x0 : Vec Ideal S10000x64 .f32) (x1 : Vec Ideal S64x64 .f32) (p : Fin 10000) (q : Fin 64) :
    k0_pay1 x0 x1 (ix2 p q) = ∑ k : Fin 64, x0 (ix2 p k) * x1 (ix2 k q) :=
  Cert.Lib.matmul_plain_zero_apply dot_S10000x64_S64x64_S10000x64_1_0_0_1_n_n_wf none
    (truncf .bf16 x0 bitsLt_bf16_f32) (truncf .bf16 x1 bitsLt_bf16_f32) p q

/-- When the staged rows are rows of `X` — row `y 0` of the block is row `i 0` of `X` — and the staged weights are `W` at the
    columns in question, the body's product at `y` is the whole product `X · W` at `i`. -/
theorem pay_block (X : S100000x64.Idx → EReal) (W : S64x64.Idx → EReal) (x0 : Vec Ideal S10000x64 .f32)
    (x1 : Vec Ideal S64x64 .f32) (y : S10000x64.Idx) (i : S100000x64.Idx)
    (h0 : ∀ k : Fin 64, x0 (ix2 (y 0) k) = X (ix2 (i 0) k))
    (h1 : ∀ k : Fin 64, x1 (ix2 k (y 1)) = W (ix2 k (i 1))) :
    k0_pay1 x0 x1 y = Cert.Spec.matProd (R := 100000) X W i := by
  refine (congrArg (k0_pay1 x0 x1) (eq_ix2 y)).trans ?_
  refine (pay_apply x0 x1 (y 0) (y 1)).trans ?_
  exact Finset.sum_congr rfl fun k _ => by rw [h0 k, h1 k]

/-- The index maps over the ten grid points: the staged rows and the written rows are block `t`; the weights stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product of the two input arrays as the region finds them. -/
theorem flushed_eq (c : Dev nD) (t : Fin cfg0.N) :
    (dat0 V c).flushed 2 t = ((cfg0.win 2).blk t).view.read (Elt Ideal)
      (Cert.Spec.matProd (R := 100000) (V c main_arg0 : S100000x64.Idx → EReal) (V c main_arg2 : S64x64.Idx → EReal)) := by
  show (cfg0.win 2).cut (grid0.coords t) ((dat0 V c).after 2 t) = _
  rw [after0_2]
  unfold out0_2
  rw [View.canon_unit_zero hz]
  simp only [View.ld_unit_zero (S := S10000x64) hz, View.ld_unit_zero (S := S64x64) hz]
  obtain ⟨e0, e1, e2, e3, e4, e5⟩ := idx_facts t
  funext j
  show k0_pay1 (iblk0 V c 0 t) (iblk0 V c 1 t) j
    = Cert.Spec.matProd (R := 100000) (V c main_arg0 : S100000x64.Idx → EReal) (V c main_arg2 : S64x64.Idx → EReal)
        (((cfg0.win 2).blk t).view.emb j)
  refine pay_block (V c main_arg0) (V c main_arg2) (iblk0 V c 0 t) (iblk0 V c 1 t) j (((cfg0.win 2).blk t).view.emb j)
    (fun k => ?_) (fun k => ?_)
  · show (V c main_arg0 : S100000x64.Idx → EReal) (((cfg0.win 0).blk t).view.emb (ix2 (j 0) k))
      = (V c main_arg0 : S100000x64.Idx → EReal) (ix2 ((((cfg0.win 2).blk t).view.emb j) 0) k)
    refine congrArg (V c main_arg0 : S100000x64.Idx → EReal) (funext fun a => Fin.ext ?_)
    match a with
    | ⟨0, _⟩ =>
      show win0_0.index t (0 : Fin 2) * 10000 + 1 * (j 0).val = win0_2.index t (0 : Fin 2) * 10000 + 1 * (j 0).val
      omega
    | ⟨1, _⟩ =>
      show win0_0.index t (1 : Fin 2) * 64 + 1 * k.val = k.val
      omega
  · show (V c main_arg2 : S64x64.Idx → EReal) (((cfg0.win 1).blk t).view.emb (ix2 k (j 1)))
      = (V c main_arg2 : S64x64.Idx → EReal) (ix2 k ((((cfg0.win 2).blk t).view.emb j) 1))
    refine congrArg (V c main_arg2 : S64x64.Idx → EReal) (funext fun a => Fin.ext ?_)
    match a with
    | ⟨0, _⟩ =>
      show win0_1.index t (0 : Fin 2) * 64 + 1 * k.val = k.val
      omega
    | ⟨1, _⟩ =>
      show win0_1.index t (1 : Fin 2) * 64 + 1 * (j 1).val = win0_2.index t (1 : Fin 2) * 64 + 1 * (j 1).val
      omega

/-- An index of the result is in point `t`'s block iff each coordinate is in the block's range on its axis. -/
theorem mem_blk (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v0).slice (win0_2.rect t)).set ↔ _
  rw [View.set_slice_whole, Rect.mem_set_unit]
  exact Iff.rfl

/-- Row `r` of the result lies in the block of point `r / 10000`: the ten blocks cover the array. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  have ht : (i 0).val / 10000 < cfg0.N := by rw [hN]; omega
  obtain ⟨-, -, -, -, e4, e5⟩ := idx_facts ⟨(i 0).val / 10000, ht⟩
  have e4' : win0_2.index ⟨(i 0).val / 10000, ht⟩ (0 : Fin 2) = (i 0).val / 10000 := e4
  refine ⟨⟨(i 0).val / 10000, ht⟩, flush0_2 _, ?_⟩
  rw [mem_blk]
  intro a
  match a with
  | ⟨0, _⟩ =>
    show win0_2.index ⟨(i 0).val / 10000, ht⟩ (0 : Fin 2) * 10000 ≤ (i 0).val
      ∧ (i 0).val < win0_2.index ⟨(i 0).val / 10000, ht⟩ (0 : Fin 2) * 10000 + 10000
    omega
  | ⟨1, _⟩ =>
    show win0_2.index ⟨(i 0).val / 10000, ht⟩ (1 : Fin 2) * 64 ≤ (i 1).val
      ∧ (i 1).val < win0_2.index ⟨(i 0).val / 10000, ht⟩ (1 : Fin 2) * 64 + 64
    omega

/-- The result array after the region: the whole product of the two input arrays as the region finds them. -/
theorem final (c : Dev nD) :
    (dat0 V c).arrAt 2 cfg0.N
      = Cert.Spec.matProd (R := 100000) (V c main_arg0 : S100000x64.Idx → EReal) (V c main_arg2 : S64x64.Idx → EReal) :=
  (dat0 V c).arrAt_eq_of_cover 2 _ (fun t _ => flushed_eq V c t) cover

end Cert.KernelIdeal.Product

end
-- ==== Proof.LibColumn.lean ====
/-
  A column vector's layout operations read at an index.

  A vector of `a` entries reshaped to a column `[a, 1]` reads, at `(i, 0)`, the vector's entry `i`; a column `[a, 1]`
  broadcast along its unit axis to `[a, b]` reads, at `(p, c)`, the column's entry `p`, whatever the column `c`. These
  are the column counterparts of the library's row forms (a vector as one row, one row broadcast over many).
-/
import Idealize.ShloMosaic.Lib.ValueIdx
import Idealize.ShloMosaic.Lib.Pipeline.Value

noncomputable section

namespace Cert.Lib

open Idealize.ShloMosaic Idealize.ShloMosaic.ValueIdx

variable {α : Type}

/-- An `[a]` array cast to a column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.LibRowMax.lean ====
/-
  A row's maximum read at an index.

  A `vector.multi_reduction <maximumf>` of an `[R, K]` array over its second axis, read on the extended reals at row
  `p`, is the fold of `max` from the accumulator's value over the `K` entries `src (p, k)` of that row: the reduced index
  `(p)` with the coordinate `k` put back on the reduced axis is `(p, k)`.
-/
import Idealize.ShloMosaic.PureOps.Ideal.Laws
import Idealize.ShloMosaic.Lib.ValueIdx

noncomputable section

namespace Cert.Lib

open Idealize.ShloMosaic Idealize.ShloMosaic.ValueIdx

variable {R K : ℕ}

/-- The reduced index `(p)` with coordinate `k` inserted on axis 1 is `(p, k)`. -/
theorem lift_lastAxis2 (h : (⟨2, ![R, K]⟩ : Shape).Reduces [1] (⟨1, ![R]⟩ : Shape)) (p : Fin R)
    (k : Fin ((⟨2, ![R, K]⟩ : Shape).size 1)) : h.lift (ix1 p) k = ix2 p (⟨k.val, k.isLt⟩ : Fin K) := by
  funext c; apply Fin.ext
  fin_cases c <;> rfl

/-- A float maximum over the second axis of an `[R, K]` array, at row `p`: the fold of `max` over that row. -/
theorem multiReduction_maximumf_rows {φ : FTy} (src : FVec Ideal ⟨2, ![R, K]⟩ φ) (acc : BitVec φ.bits)
    (h : (⟨2, ![R, K]⟩ : Shape).Reduces [1] (⟨1, ![R]⟩ : Shape)) (hφ : FKind.Formats φ)
    (hacc : acc = FKind.maximumf.neutral φ hφ) (p : Fin R) :
    multiReduction .maximumf [1] (⟨1, ![R]⟩ : Shape) src acc h hφ hacc (ix1 p)
      = (Finset.univ : Finset (Fin K)).fold max (Ideal.ofBits φ acc) (fun k => src (ix2 p k)) := by
  refine (Ideal.multiReduction_maximumf_single src acc h hφ hacc (ix1 p)).trans ?_
  have hf : (src ∘ h.lift (ix1 p)) = fun k : Fin K => src (ix2 p k) :=
    funext fun k => congrArg src (lift_lastAxis2 h p k)
  exact congrArg (fun f => Finset.fold max (Ideal.ofBits φ acc) f (Finset.univ : Finset (Fin K))) hf

end Cert.Lib

end
-- ==== Proof.LibRowSum.lean ====
/-
  A row's sum read at an index.

  A `vector.multi_reduction <add>` of an `[R, K]` array over its second axis, read on the extended reals at row `p`, is
  the sum of the `K` entries `src (p, k)` of that row: the reduced index `(p)` with the coordinate `k` put back on the
  reduced axis is `(p, k)`. Addition of extended reals is commutative and associative, so the order in which the lanes are
  added does not appear.
-/
import Idealize.ShloMosaic.PureOps.Ideal.Laws
import Idealize.ShloMosaic.Lib.ValueIdx
import proofs.«135590_j37769942401557_1_alg».proof.Proof.LibRowMax

noncomputable section

namespace Cert.Lib

open Idealize.ShloMosaic Idealize.ShloMosaic.ValueIdx
open scoped BigOperators

variable {R K : ℕ}

/-- A float sum over the second axis of an `[R, K]` array, at row `p`: the sum of that row's entries. -/
theorem multiReduction_add_rows {φ : FTy} (src : FVec Ideal ⟨2, ![R, K]⟩ φ) (acc : BitVec φ.bits)
    (h : (⟨2, ![R, K]⟩ : Shape).Reduces [1] (⟨1, ![R]⟩ : Shape)) (hφ : FKind.Formats φ)
    (hacc : acc = FKind.add.neutral φ hφ) (p : Fin R) :
    multiReduction .add [1] (⟨1, ![R]⟩ : Shape) src acc h hφ hacc (ix1 p) = ∑ k : Fin K, src (ix2 p k) := by
  refine (Ideal.multiReduction_add_single src acc h hφ hacc (ix1 p)).trans ?_
  have hf : (fun k => src (h.lift (ix1 p) k)) = fun k : Fin K => src (ix2 p k) :=
    funext fun k => congrArg src (lift_lastAxis2 h p k)
  exact congrArg (fun f => ∑ k : Fin K, f k) hf

end Cert.Lib

end
-- ==== Proof.RegionNorm.lean ====
/-
  The second region: the aggregate normalised row by row.

  The region walks ten grid points. Point `t` stages rows `10000·t … 10000·t + 9999` of the aggregate and the whole of the
  bias, scale and shift rows, and writes back, as rows `10000·t …` of the result, the block normalised row by row:
  bias added and negative entries cut to zero; the row's mean (its lane sum over 64); the centred entries; the variance
  (the lane sum of their squares over 64); and `centred · (variance + ε)^(-1/2) · scale + shift`. Every step at row `p` of
  the block reads only row `p` — a lane sum, a column kept as `[10000, 1]` and broadcast back along the lanes — so the
  block's entry `(p, q)` is the normalised entry `q` of that one row, and row `p` of block `t` is row `10000·t + p` of the
  aggregate. So each block written back is the same block of the whole array normalised row by row, and the ten blocks
  cover the result's `100000` rows.
-/
import proofs.«135590_j37769942401557_1_alg».proof.Proof.Gen.KernelIdeal.Frame
import proofs.«135590_j37769942401557_1_alg».proof.Proof.LibColumn
import proofs.«135590_j37769942401557_1_alg».proof.Proof.LibRowSum
import proofs.«135590_j37769942401557_1_alg».proof.Proof.RowNorm
import Idealize.ShloMosaic.Lib.Pipeline.Value
import Idealize.ShloMosaic.Lib.ValueLayout

noncomputable section

namespace Cert.KernelIdeal.Norm

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

theorem hz : (![0, 0] : Fin 2 → Nat) = fun _ => 0 := funext fun a => by fin_cases a <;> rfl

/-! ## The body's blocks, named -/

section Body

variable (x0 : Vec Ideal S10000x64 .f32) (x1 x2 x3 : Vec Ideal S1x64 .f32)

/-- The activated block: the bias row added to every row, negative entries cut to zero. -/
def actB : FVec Ideal S10000x64 .f32 :=
  maximumf (addf (shapeCast S10000x64 x0 shapeCasts_S10000x64_S10000x64)
      (broadcastTo S10000x64 (shapeCast S1x64 x1 shapeCasts_S1x64_S1x64) broadcasts_S1x64_S10000x64))
    (broadcast S10000x64 (Scalar.ofBits .f32 0x00000000#32))

/-- The column of a block's row sums over 64. -/
def meanCol (src : FVec Ideal S10000x64 .f32) : FVec Ideal S10000x1 .f32 :=
  divf (shapeCast S10000x1 (multiReduction .add [1] S10000 src 0x00000000#32 reduces_S10000x64_S10000 (.inl rfl) rfl)
      shapeCasts_S10000_S10000x1)
    (broadcast S10000x1 (Scalar.ofBits .f32 0x42800000#32))

/-- The centred block: every row less its mean. -/
def cenB : FVec Ideal S10000x64 .f32 :=
  subf (actB x0 x1) (broadcastTo S10000x64 (meanCol (actB x0 x1)) broadcasts_S10000x1_S10000x64)

/-- The column `(variance + ε)^(-1/2)`. -/
def invCol : FVec Ideal S10000x1 .f32 :=
  rsqrt (addf (meanCol (mulf (cenB x0 x1) (cenB x0 x1))) (broadcast S10000x1 (Scalar.ofBits .f32 0x3727C5AC#32)))

/-- The body's stored value is the centred block times that column, times the scale row, plus the shift row. -/
theorem pay_eq : k1_pay1 x0 x1 x2 x3
    = addf (mulf (mulf (cenB x0 x1) (broadcastTo S10000x64 (invCol x0 x1) broadcasts_S10000x1_S10000x64))
        (broadcastTo S10000x64 (shapeCast S1x64 x2 shapeCasts_S1x64_S1x64) broadcasts_S1x64_S10000x64))
      (broadcastTo S10000x64 (shapeCast S1x64 x3 shapeCasts_S1x64_S1x64) broadcasts_S1x64_S10000x64) := rfl

/-- The activated block at `(p, k)`: the activated entry `k` of row `p`. -/
theorem actB_apply (p : Fin 10000) (k : Fin 64) :
    actB x0 x1 (ix2 p k) = Cert.Spec.act (fun k => x0 (ix2 p k)) (fun k => x1 (ix2 (0 : Fin 1) k)) k := by
  unfold actB
  rw [shapeCast_self, shapeCast_self]
  show max (x0 (ix2 p k) + broadcastTo S10000x64 x1 broadcasts_S1x64_S10000x64 (ix2 p k)) _ = _
  rw [broadcastTo_1b_ab_apply]
  rfl

/-- The column of row sums over 64, at row `p`: that row's sum over 64. -/
theorem meanCol_apply (src : FVec Ideal S10000x64 .f32) (p : Fin 10000) :
    meanCol src (ix2 p (0 : Fin 1)) = Ideal.div (∑ k : Fin 64, src (ix2 p k)) Cert.Spec.w64 := by
  show Ideal.div (shapeCast S10000x1 (multiReduction .add [1] S10000 src 0x00000000#32 reduces_S10000x64_S10000 (.inl rfl) rfl)
      shapeCasts_S10000_S10000x1 (ix2 p (0 : Fin 1))) Cert.Spec.w64 = _
  refine congrArg (fun z => Ideal.div z Cert.Spec.w64) ?_
  refine (Cert.Lib.shapeCast_a_a1_apply _ shapeCasts_S10000_S10000x1 p (0 : Fin 1)).trans ?_
  exact Cert.Lib.multiReduction_add_rows src _ reduces_S10000x64_S10000 _ _ p

/-- The centred block at `(p, k)`: the centred entry `k` of the activated row `p`. -/
theorem cenB_apply (p : Fin 10000) (k : Fin 64) :
    cenB x0 x1 (ix2 p k)
      = Cert.Spec.cen (Cert.Spec.act (fun k => x0 (ix2 p k)) (fun k => x1 (ix2 (0 : Fin 1) k))) k := by
  show actB x0 x1 (ix2 p k) - broadcastTo S10000x64 (meanCol (actB x0 x1)) broadcasts_S10000x1_S10000x64 (ix2 p k) = _
  rw [Cert.Lib.broadcastTo_a1_ab_apply, meanCol_apply, actB_apply]
  unfold Cert.Spec.cen Cert.Spec.mean
  simp only [actB_apply]

/-- The column `(variance + ε)^(-1/2)` at row `p`. -/
theorem invCol_apply (p : Fin 10000) :
    invCol x0 x1 (ix2 p (0 : Fin 1))
      = Ideal.rsqrt (Cert.Spec.var (Cert.Spec.act (fun k => x0 (ix2 p k)) (fun k => x1 (ix2 (0 : Fin 1) k))) + Cert.Spec.wEps) := by
  show Ideal.rsqrt (meanCol (mulf (cenB x0 x1) (cenB x0 x1)) (ix2 p (0 : Fin 1)) + Cert.Spec.wEps) = _
  rw [meanCol_apply]
  unfold Cert.Spec.var
  simp only [mulf_apply, cenB_apply]

/-- The body's stored value at `(p, q)`: the normalised entry `q` of row `p`. -/
theorem pay_apply (p : Fin 10000) (q : Fin 64) :
    k1_pay1 x0 x1 x2 x3 (ix2 p q)
      = Cert.Spec.normRow (fun k => x0 (ix2 p k)) (fun k => x1 (ix2 (0 : Fin 1) k)) (fun k => x2 (ix2 (0 : Fin 1) k))
          (fun k => x3 (ix2 (0 : Fin 1) k)) q := by
  rw [pay_eq]
  show cenB x0 x1 (ix2 p q) * broadcastTo S10000x64 (invCol x0 x1) broadcasts_S10000x1_S10000x64 (ix2 p q)
      * broadcastTo S10000x64 (shapeCast S1x64 x2 shapeCasts_S1x64_S1x64) broadcasts_S1x64_S10000x64 (ix2 p q)
    + broadcastTo S10000x64 (shapeCast S1x64 x3 shapeCasts_S1x64_S1x64) broadcasts_S1x64_S10000x64 (ix2 p q) = _
  rw [cenB_apply, Cert.Lib.broadcastTo_a1_ab_apply, invCol_apply, shapeCast_self, shapeCast_self,
    broadcastTo_1b_ab_apply, broadcastTo_1b_ab_apply]
  rfl

end Body

/-! ## From blocks to the array -/

/-- When the staged rows are rows of `A` — row `p` of the block is row `p'` of `A` — and the three staged rows are the rows of
    `B`, `G`, `S`, the body's stored value at `(p, q)` is `A` normalised row by row at `(p', q)`. -/
theorem pay_block (A : S100000x64.Idx → EReal) (B G S : S1x64.Idx → EReal) (x0 : Vec Ideal S10000x64 .f32)
    (x1 x2 x3 : Vec Ideal S1x64 .f32) (p : Fin 10000) (p' : Fin 100000) (q : Fin 64)
    (h0 : ∀ k : Fin 64, x0 (ix2 p k) = A (ix2 p' k))
    (h1 : ∀ k : Fin 64, x1 (ix2 (0 : Fin 1) k) = B (ix2 (0 : Fin 1) k))
    (h2 : ∀ k : Fin 64, x2 (ix2 (0 : Fin 1) k) = G (ix2 (0 : Fin 1) k))
    (h3 : ∀ k : Fin 64, x3 (ix2 (0 : Fin 1) k) = S (ix2 (0 : Fin 1) k)) :
    k1_pay1 x0 x1 x2 x3 (ix2 p q) = Cert.Spec.normRows (R := 100000) A B G S (ix2 p' q) := by
  rw [pay_apply, Cert.Spec.normRows_apply, funext h0, funext h1, funext h2, funext h3]

variable (V : (c : Dev nD) → (b : Ref sig .tc) → Buf (Elt Ideal) ((c : Thread nD τ).loc b))

/-- The index maps over the ten grid points: the staged rows and the written rows are block `t`; the three rows stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The whole array the second region leaves: the aggregate it finds, normalised row by row under the three rows it finds. -/
abbrev G (c : Dev nD) : S100000x64.Idx → EReal :=
  Cert.Spec.normRows (R := 100000) (V c main_v43 : S100000x64.Idx → EReal) (V c main_v44 : S1x64.Idx → EReal)
    (V c main_v45 : S1x64.Idx → EReal) (V c main_v46 : S1x64.Idx → EReal)

/-- What point `t` writes back is block `t` of that array. -/
theorem flushed_eq (c : Dev nD) (t : Fin cfg1.N) :
    (dat1 V c).flushed 4 t = ((cfg1.win 4).blk t).view.read (Elt Ideal) (G V c) := by
  show (cfg1.win 4).cut (grid1.coords t) ((dat1 V c).after 4 t) = _
  rw [after1_4]
  unfold out1_4
  rw [View.canon_unit_zero hz]
  simp only [View.ld_unit_zero (S := S10000x64) hz, View.ld_unit_zero (S := S1x64) hz]
  obtain ⟨e0, e1, e2, e3, e4, e5, e6, e7, e8, e9⟩ := idx_facts t
  have hN : cfg1.N = 10 := N_1
  have ht : t.val < 10 := by have := t.isLt; omega
  funext j
  have hj0 : (j 0).val < 10000 := (j 0).isLt
  have hj1 : (j 1).val < 64 := (j 1).isLt
  have hemb : ((cfg1.win 4).blk t).view.emb j
      = ix2 (⟨t.val * 10000 + (j 0).val, by omega⟩ : Fin 100000) (⟨(j 1).val, hj1⟩ : Fin 64) :=
    funext fun a => Fin.ext (by
      match a with
      | ⟨0, _⟩ => show win1_4.index t (0 : Fin 2) * 10000 + 1 * (j 0).val = t.val * 10000 + (j 0).val; omega
      | ⟨1, _⟩ => show win1_4.index t (1 : Fin 2) * 64 + 1 * (j 1).val = (j 1).val; omega)
  have hj : j = ix2 (⟨(j 0).val, hj0⟩ : Fin 10000) (⟨(j 1).val, hj1⟩ : Fin 64) :=
    funext fun a => Fin.ext (by match a with | ⟨0, _⟩ => rfl | ⟨1, _⟩ => rfl)
  show k1_pay1 (iblk1 V c 0 t) (iblk1 V c 1 t) (iblk1 V c 2 t) (iblk1 V c 3 t) j = G V c (((cfg1.win 4).blk t).view.emb j)
  rw [hemb]
  refine (congrArg (k1_pay1 (iblk1 V c 0 t) (iblk1 V c 1 t) (iblk1 V c 2 t) (iblk1 V c 3 t)) hj).trans ?_
  refine pay_block (V c main_v43) (V c main_v44) (V c main_v45) (V c main_v46) (iblk1 V c 0 t) (iblk1 V c 1 t)
    (iblk1 V c 2 t) (iblk1 V c 3 t) ⟨(j 0).val, hj0⟩ ⟨t.val * 10000 + (j 0).val, by omega⟩ ⟨(j 1).val, hj1⟩
    (fun k => ?_) (fun k => ?_) (fun k => ?_) (fun k => ?_)
  · show (V c main_v43 : S100000x64.Idx → EReal) (((cfg1.win 0).blk t).view.emb (ix2 (⟨(j 0).val, hj0⟩ : Fin 10000) k))
      = (V c main_v43 : S100000x64.Idx → EReal) (ix2 (⟨t.val * 10000 + (j 0).val, by omega⟩ : Fin 100000) k)
    refine congrArg (V c main_v43 : S100000x64.Idx → EReal) (funext fun a => Fin.ext ?_)
    match a with
    | ⟨0, _⟩ => show win1_0.index t (0 : Fin 2) * 10000 + 1 * (j 0).val = t.val * 10000 + (j 0).val; omega
    | ⟨1, _⟩ => show win1_0.index t (1 : Fin 2) * 64 + 1 * k.val = k.val; omega
  · show (V c main_v44 : S1x64.Idx → EReal) (((cfg1.win 1).blk t).view.emb (ix2 (0 : Fin 1) k))
      = (V c main_v44 : S1x64.Idx → EReal) (ix2 (0 : Fin 1) k)
    refine congrArg (V c main_v44 : S1x64.Idx → EReal) (funext fun a => Fin.ext ?_)
    match a with
    | ⟨0, _⟩ => show win1_1.index t (0 : Fin 2) * 1 + 1 * 0 = 0; omega
    | ⟨1, _⟩ => show win1_1.index t (1 : Fin 2) * 64 + 1 * k.val = k.val; omega
  · show (V c main_v45 : S1x64.Idx → EReal) (((cfg1.win 2).blk t).view.emb (ix2 (0 : Fin 1) k))
      = (V c main_v45 : S1x64.Idx → EReal) (ix2 (0 : Fin 1) k)
    refine congrArg (V c main_v45 : S1x64.Idx → EReal) (funext fun a => Fin.ext ?_)
    match a with
    | ⟨0, _⟩ => show win1_2.index t (0 : Fin 2) * 1 + 1 * 0 = 0; omega
    | ⟨1, _⟩ => show win1_2.index t (1 : Fin 2) * 64 + 1 * k.val = k.val; omega
  · show (V c main_v46 : S1x64.Idx → EReal) (((cfg1.win 3).blk t).view.emb (ix2 (0 : Fin 1) k))
      = (V c main_v46 : S1x64.Idx → EReal) (ix2 (0 : Fin 1) k)
    refine congrArg (V c main_v46 : S1x64.Idx → EReal) (funext fun a => Fin.ext ?_)
    match a with
    | ⟨0, _⟩ => show win1_3.index t (0 : Fin 2) * 1 + 1 * 0 = 0; omega
    | ⟨1, _⟩ => show win1_3.index t (1 : Fin 2) * 64 + 1 * k.val = k.val; omega

/-- An index of the result is in point `t`'s block iff each coordinate is in the block's range on its axis. -/
theorem mem_blk (t : Fin cfg1.N) (i : S100000x64.Idx) :
    i ∈ ((cfg1.win 4).blk t).view.set ↔ ∀ a : Fin 2, win1_4.index t a * S10000x64.size a ≤ (i a).val
      ∧ (i a).val < win1_4.index t a * S10000x64.size a + S10000x64.size a := by
  show i ∈ ((View.whole main_v47).slice (win1_4.rect t)).set ↔ _
  rw [View.set_slice_whole, Rect.mem_set_unit]
  exact Iff.rfl

/-- Row `r` of the result lies in the block of point `r / 10000`: the ten blocks cover the array. -/
theorem cover (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  have hN : cfg1.N = 10 := N_1
  have ht : (i 0).val / 10000 < cfg1.N := by rw [hN]; omega
  obtain ⟨-, -, -, -, -, -, -, -, e8, e9⟩ := idx_facts ⟨(i 0).val / 10000, ht⟩
  have e8' : win1_4.index ⟨(i 0).val / 10000, ht⟩ (0 : Fin 2) = (i 0).val / 10000 := e8
  refine ⟨⟨(i 0).val / 10000, ht⟩, flush1_4 _, ?_⟩
  rw [mem_blk]
  intro a
  match a with
  | ⟨0, _⟩ =>
    show win1_4.index ⟨(i 0).val / 10000, ht⟩ (0 : Fin 2) * 10000 ≤ (i 0).val
      ∧ (i 0).val < win1_4.index ⟨(i 0).val / 10000, ht⟩ (0 : Fin 2) * 10000 + 10000
    omega
  | ⟨1, _⟩ =>
    show win1_4.index ⟨(i 0).val / 10000, ht⟩ (1 : Fin 2) * 64 ≤ (i 1).val
      ∧ (i 1).val < win1_4.index ⟨(i 0).val / 10000, ht⟩ (1 : Fin 2) * 64 + 64
    omega

/-- The result array after the region: the aggregate it finds, normalised row by row under the three rows it finds. -/
theorem final (c : Dev nD) : (dat1 V c).arrAt 4 cfg1.N = G V c :=
  (dat1 V c).arrAt_eq_of_cover 4 _ (fun t _ => flushed_eq V c t) cover

end Cert.KernelIdeal.Norm

end
-- ==== Proof.Aggregate.lean ====
/-
  The aggregation over the graph's edges, as one function.

  Between the linear transform and the normalisation both programs run the same host operations on the transformed
  features `h` and the edge list `e`: the edge list extended by one self-loop per node; each node's degree (a scatter of
  ones onto the targets), its inverse square root where the degree is positive; the weight of an edge, the product of its
  two ends' factors; the rows of `h` gathered at the sources and scaled by the weights; and those rows added up at their
  targets. Every step other than the gather of `h` depends on `e` only. The whole is named here as one function `agg h e`
  and is never opened: the two programs differ in how `h` is computed and in what follows, not in this.
-/
import proofs.«135590_j37769942401557_1_alg».proof.Proof.RefRead

noncomputable section

namespace Cert.ReferenceIdeal.Agg

open Cert.ReferenceIdeal Cert.ReferenceIdeal.Gen Cert.ReferenceIdeal.ReadP
open Idealize.ShloMosaic Idealize.ShloMosaic.TcCoe

variable {F : FTy → Type} [FloatOps F]

/-- The rows of `h` gathered at the edges' sources, scaled by the edges' weights and added up at the edges' targets. -/
def agg (h : (⟨S100000x64, .f32⟩ : BufTy).Contents (Elt F)) (e : (⟨S2x1600000, .i32⟩ : BufTy).Contents (Elt F)) :
    (⟨S100000x64, .f32⟩ : BufTy).Contents (Elt F) :=
  Host.scatterAdd scatter_S100000x64_S1700000x1_S1700000x64_1_0_0_1 (val_main_v41 (F := F)) (val_main_v42 (F := F) e)
    (mulf (Host.gather gather_S100000x64_S1700000x1_S1700000x64_1_0_n_n_0_1_164 h (val_main_v36 (F := F) e))
      (val_main_v39 (F := F) e))

/-- The reference's aggregate is that function of its own linear transform. -/
theorem val_main_v43_eq (x0 : (⟨S100000x64, .f32⟩ : BufTy).Contents (Elt F)) (e : (⟨S2x1600000, .i32⟩ : BufTy).Contents (Elt F))
    (x2 : (⟨S64x64, .f32⟩ : BufTy).Contents (Elt F)) :
    val_main_v43 (F := F) x0 e x2 = agg (val_main_v7 (F := F) x0 x2) e := rfl

end Cert.ReferenceIdeal.Agg

end
-- ==== Proof.HostMiddle.lean ====
/-
  The kernel's host operations between its two regions.

  After the first region the kernel's program runs, on the host, the aggregation over the graph's edges on the first
  region's result and the edge list, and reshapes the bias, scale and shift vectors to rows. Read from any contents `W` of
  the buffers at the first region's exit: the aggregate's buffer ends at `agg` of the first region's result and the edge
  list — the same operations, in the same order, as the reference's — and each row's buffer at its vector as one row.
  Nothing here depends on what a float is: the statements hold for any float values.
-/
import proofs.«135590_j37769942401557_1_alg».proof.Proof.Gen.KernelIdeal.Launch
import proofs.«135590_j37769942401557_1_alg».proof.Proof.Aggregate
import Idealize.ShloMosaic.Lib.StableHlo.Run

set_option maxRecDepth 16384

noncomputable section

namespace Cert.KernelIdeal.Host

open Cert.KernelIdeal Cert.KernelIdeal.Gen
open Idealize.ShloMosaic Idealize.ShloMosaic.TcCoe Idealize.SL.Sem Idealize.ShloMosaic.StableHlo

variable {F : FTy → Type} [FloatOps F] (W : Valuation τ sig (Elt F))

set_option maxHeartbeats 4000000 in
/-- The aggregate's buffer after the host operations. -/
theorem agg_after :
    StableHlo.after (hostOps1_2 (F := F)) (StableHlo.after (hostOps1_1 (F := F)) (StableHlo.after (hostOps1 (F := F)) W))
        (Proc.devRef .tc main_v43)
      = Cert.ReferenceIdeal.Agg.agg (F := F) (W (Proc.devRef .tc main_v0)) (W (Proc.devRef .tc main_arg1)) := by
  dsimp only [hostOps1, hostOps1_1, hostOps1_2]
  after_results_simp
  rfl

set_option maxHeartbeats 4000000 in
/-- The bias row's buffer after the host operations: the bias vector as one row. -/
theorem bias_after :
    StableHlo.after (hostOps1_2 (F := F)) (StableHlo.after (hostOps1_1 (F := F)) (StableHlo.after (hostOps1 (F := F)) W))
        (Proc.devRef .tc main_v44)
      = (shapeCast S1x64 (W (Proc.devRef .tc main_arg3) : (⟨S64, .f32⟩ : BufTy).Contents (Elt F)) shapeCasts_S64_S1x64
          : (⟨S1x64, .f32⟩ : BufTy).Contents (Elt F)) := by
  dsimp only [hostOps1, hostOps1_1, hostOps1_2]
  after_results_simp
  rfl

set_option maxHeartbeats 4000000 in
/-- The scale row's buffer after the host operations: the scale vector as one row. -/
theorem scale_after :
    StableHlo.after (hostOps1_2 (F := F)) (StableHlo.after (hostOps1_1 (F := F)) (StableHlo.after (hostOps1 (F := F)) W))
        (Proc.devRef .tc main_v45)
      = (shapeCast S1x64 (W (Proc.devRef .tc main_arg4) : (⟨S64, .f32⟩ : BufTy).Contents (Elt F)) shapeCasts_S64_S1x64
          : (⟨S1x64, .f32⟩ : BufTy).Contents (Elt F)) := by
  dsimp only [hostOps1, hostOps1_1, hostOps1_2]
  after_results_simp
  rfl

set_option maxHeartbeats 4000000 in
/-- The shift row's buffer after the host operations: the shift vector as one row. -/
theorem shift_after :
    StableHlo.after (hostOps1_2 (F := F)) (StableHlo.after (hostOps1_1 (F := F)) (StableHlo.after (hostOps1 (F := F)) W))
        (Proc.devRef .tc main_v46)
      = (shapeCast S1x64 (W (Proc.devRef .tc main_arg5) : (⟨S64, .f32⟩ : BufTy).Contents (Elt F)) shapeCasts_S64_S1x64
          : (⟨S1x64, .f32⟩ : BufTy).Contents (Elt F)) := by
  dsimp only [hostOps1, hostOps1_1, hostOps1_2]
  after_results_simp
  rfl

end Cert.KernelIdeal.Host

end
-- ==== Proof.LibAsRow.lean ====
/-
  A vector as one row.

  A vector of `n` entries laid out as a `[1, n]` array reads, at `(u, k)`, the vector's entry `k`. Two layout operations
  produce that array: a reshape `[n] → [1, n]`, and a broadcast of `[n]` into `[1, n]` that sends the vector's axis to
  the array's second axis. Both are the same function of the vector.
-/
import Idealize.ShloMosaic.Lib.ValueIdx
import Idealize.ShloMosaic.Lib.Pipeline.Value
import Idealize.ShloMosaic.Lib.ValueLayout

noncomputable section

namespace Cert.Lib

open Idealize.ShloMosaic Idealize.ShloMosaic.ValueIdx

variable {α : Type} {n : ℕ}

/-- The `[1, n]` array whose one row is the vector `v`. -/
def asRow (v : (⟨1, ![n]⟩ : Shape).Idx → α) : (⟨2, ![1, n]⟩ : Shape).Idx → α := fun i => v (ix1 (i 1))

theorem asRow_apply (v : (⟨1, ![n]⟩ : Shape).Idx → α) (u : Fin 1) (k : Fin n) : asRow v (ix2 u k) = v (ix1 k) := rfl

/-- A vector reshaped to `[1, n]` is the vector as one row. -/
theorem shapeCast_eq_asRow (v : (⟨1, ![n]⟩ : Shape).Idx → α) (h : (⟨1, ![n]⟩ : Shape).ShapeCasts ⟨2, ![1, n]⟩) :
    shapeCast ⟨2, ![1, n]⟩ v h = asRow v :=
  funext fun i => (congrArg (shapeCast ⟨2, ![1, n]⟩ v h) (eq_ix2 i)).trans (shapeCast_a_1a_apply v h (i 0) (i 1))

/-- A vector broadcast into `[1, n]` along the second axis is the vector as one row. -/
theorem broadcastInDim_eq_asRow (v : (⟨1, ![n]⟩ : Shape).Idx → α)
    (h : (⟨1, ![n]⟩ : Shape).BroadcastsInDim ⟨2, ![1, n]⟩ (![1] : Fin 1 → Fin 2)) :
    broadcastInDim ⟨2, ![1, n]⟩ ![1] h v = asRow v :=
  funext fun i => broadcastInDim_apply _ h v i (ix1 (i 1)) (fun a => match a with
    | ⟨0, _⟩ => by
      show (i 1).val = if n = 1 then 0 else (i 1).val
      have h1 : (i 1).val < n := (i 1).isLt
      split
      · omega
      · rfl)

end Cert.Lib

end
-- ==== Proof.KernelValue.lean ====
/-
  The idealized kernel's result as one function of its arguments.

  Read backwards from the run: the result array is what the second region's write-backs leave, which is the aggregate the
  region finds, normalised row by row under the three rows it finds; those four arrays are what the host operations
  between the regions leave — `agg` of the first region's result and the edge list, and the bias, scale and shift vectors
  as one row each; the first region's result is the whole product of the features with the weights; and the argument
  arrays are as launched throughout. So the result is
  `normRows (agg (x · W) e) (row b) (row g) (row s)`.
-/
import proofs.«135590_j37769942401557_1_alg».proof.Proof.KernelRun
import proofs.«135590_j37769942401557_1_alg».proof.Proof.RegionProduct
import proofs.«135590_j37769942401557_1_alg».proof.Proof.RegionNorm
import proofs.«135590_j37769942401557_1_alg».proof.Proof.HostMiddle
import proofs.«135590_j37769942401557_1_alg».proof.Proof.LibAsRow

set_option maxRecDepth 16384

noncomputable section

namespace Cert.KernelIdeal.Final

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The result as a function of the launch memory: the aggregate of the whole product, normalised row by row. -/
abbrev G (c : Dev nD) : S100000x64.Idx → EReal :=
  Cert.Spec.normRows (R := 100000)
    (Cert.ReferenceIdeal.Agg.agg (F := Ideal)
      (Cert.Spec.matProd (R := 100000) (m ((c : Thread nD τ).loc main_arg0)) (m ((c : Thread nD τ).loc main_arg2)))
      (m ((c : Thread nD τ).loc main_arg1)))
    (Cert.Lib.asRow (m ((c : Thread nD τ).loc main_arg3) : S64.Idx → EReal))
    (Cert.Lib.asRow (m ((c : Thread nD τ).loc main_arg4) : S64.Idx → EReal))
    (Cert.Lib.asRow (m ((c : Thread nD τ).loc main_arg5) : S64.Idx → EReal))

/-- The first region leaves the whole product of the features with the weights as launched. -/
theorem product_eq (c : Dev nD) :
    (W1 m ρ c (Proc.devRef .tc main_v0) : S100000x64.Idx → EReal)
      = Cert.Spec.matProd (R := 100000) (m ((c : Thread nD τ).loc main_arg0)) (m ((c : Thread nD τ).loc main_arg2)) :=
  ((W1_arr m ρ c 2).trans (Cert.KernelIdeal.Product.final (V0 m ρ) c)).trans rfl

/-- The aggregate the second region finds. -/
theorem agg_eq (c : Dev nD) :
    (V4 m ρ c main_v43 : S100000x64.Idx → EReal)
      = Cert.ReferenceIdeal.Agg.agg (F := Ideal)
          (Cert.Spec.matProd (R := 100000) (m ((c : Thread nD τ).loc main_arg0)) (m ((c : Thread nD τ).loc main_arg2)))
          (m ((c : Thread nD τ).loc main_arg1)) := by
  refine (Cert.KernelIdeal.Host.agg_after (F := Ideal) (W1 m ρ c)).trans ?_
  rw [product_eq m ρ c, show W1 m ρ c (Proc.devRef .tc main_arg1) = m ((c : Thread nD τ).loc main_arg1) from
    (W1_of_ne m ρ c main_arg1 (by decide)).trans rfl]

/-- The three rows the second region finds. -/
theorem bias_eq (c : Dev nD) :
    (V4 m ρ c main_v44 : S1x64.Idx → EReal) = Cert.Lib.asRow (m ((c : Thread nD τ).loc main_arg3) : S64.Idx → EReal) := by
  refine (Cert.KernelIdeal.Host.bias_after (F := Ideal) (W1 m ρ c)).trans ?_
  rw [show W1 m ρ c (Proc.devRef .tc main_arg3) = m ((c : Thread nD τ).loc main_arg3) from
    (W1_of_ne m ρ c main_arg3 (by decide)).trans rfl]
  exact Cert.Lib.shapeCast_eq_asRow _ _

theorem scale_eq (c : Dev nD) :
    (V4 m ρ c main_v45 : S1x64.Idx → EReal) = Cert.Lib.asRow (m ((c : Thread nD τ).loc main_arg4) : S64.Idx → EReal) := by
  refine (Cert.KernelIdeal.Host.scale_after (F := Ideal) (W1 m ρ c)).trans ?_
  rw [show W1 m ρ c (Proc.devRef .tc main_arg4) = m ((c : Thread nD τ).loc main_arg4) from
    (W1_of_ne m ρ c main_arg4 (by decide)).trans rfl]
  exact Cert.Lib.shapeCast_eq_asRow _ _

theorem shift_eq (c : Dev nD) :
    (V4 m ρ c main_v46 : S1x64.Idx → EReal) = Cert.Lib.asRow (m ((c : Thread nD τ).loc main_arg5) : S64.Idx → EReal) := by
  refine (Cert.KernelIdeal.Host.shift_after (F := Ideal) (W1 m ρ c)).trans ?_
  rw [show W1 m ρ c (Proc.devRef .tc main_arg5) = m ((c : Thread nD τ).loc main_arg5) from
    (W1_of_ne m ρ c main_arg5 (by decide)).trans rfl]
  exact Cert.Lib.shapeCast_eq_asRow _ _

/-- The last boundary's contents at the result's buffer: the one function of the launch memory. -/
theorem value_eq (c : Dev nD) : (W5 m ρ c (Proc.devRef .tc main_v47) : S100000x64.Idx → EReal) = G m c := by
  refine ((Cert.KernelIdeal.Run.result_eq m ρ c).trans (Cert.KernelIdeal.Norm.final (V4 m ρ) c)).trans ?_
  show Cert.Spec.normRows (R := 100000) (V4 m ρ c main_v43 : S100000x64.Idx → EReal) (V4 m ρ c main_v44 : S1x64.Idx → EReal)
    (V4 m ρ c main_v45 : S1x64.Idx → EReal) (V4 m ρ c main_v46 : S1x64.Idx → EReal) = _
  rw [agg_eq m ρ c, bias_eq m ρ c, scale_eq m ρ c, shift_eq m ρ c]

/-- The run with the result at that function, the arguments as launched. -/
theorem run : θ_run defs (onTc (τ := τ) (main (F := Ideal))) ⟨m, fun _ => 0, ρ⟩ (fun r => ∀ c : Dev nD,
      r.2.mem ((c.tc : Thread nD τ).loc main_v47) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (value_eq m ρ c), (h c).2⟩)
    (Cert.KernelIdeal.Run.run_named (F := Ideal) m ρ)

end Cert.KernelIdeal.Final

end
-- ==== Proof.RefValue.lean ====
/-
  The reference's result, read stage by stage.

  After the aggregation the reference adds the bias to every row, cuts negative entries to zero, and normalises each row:
  its mean (a sum over the 64 features, from an initial zero, over 64), the centred entries, the variance (the sum of their
  squares over 64), and `centred · (variance + ε)^(-1/2) · scale + shift`. Each stage at row `p` reads only row `p` of the
  stage before, a column kept as `[100000, 1]` being broadcast back along the features; the bias, scale and shift vectors
  enter as one row each. So the result at `(p, q)` is the normalised entry `q` of row `p` of the aggregate — the same
  function of that row as the kernel's second region computes — and the linear transform before the aggregation is the
  whole product of the features with the weights.
-/
import proofs.«135590_j37769942401557_1_alg».proof.Proof.RefRead
import proofs.«135590_j37769942401557_1_alg».proof.Proof.Aggregate
import proofs.«135590_j37769942401557_1_alg».proof.Proof.RowNorm
import proofs.«135590_j37769942401557_1_alg».proof.Proof.LibAsRow

noncomputable section

namespace Cert.ReferenceIdeal.RefValue

open Cert.ReferenceIdeal Cert.ReferenceIdeal.Gen Cert.ReferenceIdeal.ReadP
open Idealize.ShloMosaic Idealize.ShloMosaic.TcCoe Idealize.ShloMosaic.ValueIdx
open scoped BigOperators

variable (x0 : (⟨S100000x64, .f32⟩ : BufTy).Contents (Elt Ideal)) (x1 : (⟨S2x1600000, .i32⟩ : BufTy).Contents (Elt Ideal))
  (x2 : (⟨S64x64, .f32⟩ : BufTy).Contents (Elt Ideal)) (x3 x4 x5 : (⟨S64, .f32⟩ : BufTy).Contents (Elt Ideal))

/-! ## The linear transform -/

/-- The reference's linear transform is the whole product of the features with the weights. -/
theorem val_main_v7_eq : val_main_v7 (F := Ideal) x0 x2 = Cert.Spec.matProd (R := 100000) x0 x2 := by
  funext i
  obtain ⟨p, q, rfl⟩ : ∃ (p : Fin 100000) (q : Fin 64), i = ix2 p q := ⟨i 0, i 1, eq_ix2 i⟩
  rw [val_main_v7_apply, Cert.Spec.matProd_apply]
  refine Finset.sum_congr rfl fun k _ => ?_
  have hl : lidx_main_v7 (ix2 p q) k = ix2 p k :=
    funext fun a => Fin.ext (by match a with | ⟨0, _⟩ => rfl | ⟨1, _⟩ => rfl)
  have hr : ridx_main_v7 (ix2 p q) k = ix2 k q :=
    funext fun a => Fin.ext (by match a with | ⟨0, _⟩ => rfl | ⟨1, _⟩ => rfl)
  rw [hl, hr]

/-! ## The indices the layout operations read -/

theorem i44 (u : Fin 1) (q : Fin 64) : idx_main_v44 (ix2 u q) = ix1 q :=
  funext fun a => Fin.ext (by match a with | ⟨0, _⟩ => rfl)
theorem i45 (p : Fin 100000) (q : Fin 64) : idx_main_v45 (ix2 p q) = ix2 (0 : Fin 1) q :=
  funext fun a => Fin.ext (by match a with | ⟨0, _⟩ => rfl | ⟨1, _⟩ => rfl)
theorem i48 (p : Fin 100000) (k : Fin 64) : idx_main_v48 (ix1 p) k = ix2 p k :=
  funext fun a => Fin.ext (by match a with | ⟨0, _⟩ => rfl | ⟨1, _⟩ => rfl)
theorem i49 (p : Fin 100000) (u : Fin 1) : idx_main_v49 (ix2 p u) = ix1 p :=
  funext fun a => Fin.ext (by match a with | ⟨0, _⟩ => rfl)
theorem i52 (p : Fin 100000) (q : Fin 64) : idx_main_v52 (ix2 p q) = ix2 p (0 : Fin 1) :=
  funext fun a => Fin.ext (by match a with | ⟨0, _⟩ => rfl | ⟨1, _⟩ => rfl)
theorem i55 (p : Fin 100000) (k : Fin 64) : idx_main_v55 (ix1 p) k = ix2 p k :=
  funext fun a => Fin.ext (by match a with | ⟨0, _⟩ => rfl | ⟨1, _⟩ => rfl)
theorem i56 (p : Fin 100000) (u : Fin 1) : idx_main_v56 (ix2 p u) = ix1 p :=
  funext fun a => Fin.ext (by match a with | ⟨0, _⟩ => rfl)
theorem i59 (p : Fin 100000) (q : Fin 64) : idx_main_v59 (ix2 p q) = ix2 p (0 : Fin 1) :=
  funext fun a => Fin.ext (by match a with | ⟨0, _⟩ => rfl | ⟨1, _⟩ => rfl)
theorem i64 (p : Fin 100000) (q : Fin 64) : idx_main_v64 (ix2 p q) = ix2 p (0 : Fin 1) :=
  funext fun a => Fin.ext (by match a with | ⟨0, _⟩ => rfl | ⟨1, _⟩ => rfl)
theorem i66 (u : Fin 1) (q : Fin 64) : idx_main_v66 (ix2 u q) = ix1 q :=
  funext fun a => Fin.ext (by match a with | ⟨0, _⟩ => rfl)
theorem i67 (p : Fin 100000) (q : Fin 64) : idx_main_v67 (ix2 p q) = ix2 (0 : Fin 1) q :=
  funext fun a => Fin.ext (by match a with | ⟨0, _⟩ => rfl | ⟨1, _⟩ => rfl)
theorem i69 (u : Fin 1) (q : Fin 64) : idx_main_v69 (ix2 u q) = ix1 q :=
  funext fun a => Fin.ext (by match a with | ⟨0, _⟩ => rfl)
theorem i70 (p : Fin 100000) (q : Fin 64) : idx_main_v70 (ix2 p q) = ix2 (0 : Fin 1) q :=
  funext fun a => Fin.ext (by match a with | ⟨0, _⟩ => rfl | ⟨1, _⟩ => rfl)

/-! ## The stages -/

/-- Row `p` of the aggregate, and the three vectors as functions of the feature. -/
abbrev rowA (p : Fin 100000) : Fin 64 → EReal := fun k => val_main_v43 (F := Ideal) x0 x1 x2 (ix2 p k)
abbrev vec (v : (⟨S64, .f32⟩ : BufTy).Contents (Elt Ideal)) : Fin 64 → EReal := fun k => v (ix1 k)

/-- The activated array at `(p, k)`: the activated entry `k` of row `p` of the aggregate. -/
theorem act_apply (p : Fin 100000) (k : Fin 64) :
    val_main_v47 (F := Ideal) x0 x1 x2 x3 (ix2 p k) = Cert.Spec.act (rowA x0 x1 x2 p) (vec x3) k := by
  rw [val_main_v47_apply, val_main_v46_apply, val_main_v45_apply, val_main_v44_apply, val_main_call1_v0_apply,
    val_main_call1_cst_apply, i45, i44]
  simp only [Ideal.maximumf_def, Ideal.addf_def, Ideal.subf_def, Ideal.mulf_def, Ideal.hostDivf_def, Ideal.hostUnary_rsqrt_def, Ideal.ofBits_def]
  unfold Cert.Spec.act
  with_reducible rfl

/-- The column of means at row `p`. -/
theorem mean_apply (p : Fin 100000) (u : Fin 1) :
    val_main_v51 (F := Ideal) x0 x1 x2 x3 (ix2 p u) = Cert.Spec.mean (Cert.Spec.act (rowA x0 x1 x2 p) (vec x3)) := by
  rw [val_main_v51_apply, val_main_v49_apply, val_main_v50_apply, val_main_cst_10_apply, i49, val_main_v48_apply,
    val_main_cst_9_apply]
  simp only [i48, act_apply, Ideal.maximumf_def, Ideal.addf_def, Ideal.subf_def, Ideal.mulf_def, Ideal.hostDivf_def, Ideal.hostUnary_rsqrt_def, Ideal.ofBits_def, Ideal.ofBits_zero_f32, zero_add]
  unfold Cert.Spec.mean
  with_reducible rfl

/-- The centred array at `(p, k)` (the reference computes it twice, from the same column of means). -/
theorem cen_apply (p : Fin 100000) (k : Fin 64) :
    val_main_v53 (F := Ideal) x0 x1 x2 x3 (ix2 p k)
      = Cert.Spec.cen (Cert.Spec.act (rowA x0 x1 x2 p) (vec x3)) k := by
  rw [val_main_v53_apply, val_main_v52_apply, i52, mean_apply, act_apply]
  simp only [Ideal.maximumf_def, Ideal.addf_def, Ideal.subf_def, Ideal.mulf_def, Ideal.hostDivf_def, Ideal.hostUnary_rsqrt_def, Ideal.ofBits_def]
  unfold Cert.Spec.cen
  with_reducible rfl

theorem cen_apply' (p : Fin 100000) (k : Fin 64) :
    val_main_v60 (F := Ideal) x0 x1 x2 x3 (ix2 p k)
      = Cert.Spec.cen (Cert.Spec.act (rowA x0 x1 x2 p) (vec x3)) k := by
  rw [val_main_v60_apply, val_main_v59_apply, i59, mean_apply, act_apply]
  simp only [Ideal.maximumf_def, Ideal.addf_def, Ideal.subf_def, Ideal.mulf_def, Ideal.hostDivf_def, Ideal.hostUnary_rsqrt_def, Ideal.ofBits_def]
  unfold Cert.Spec.cen
  with_reducible rfl

/-- The column of variances at row `p`. -/
theorem var_apply (p : Fin 100000) (u : Fin 1) :
    val_main_v58 (F := Ideal) x0 x1 x2 x3 (ix2 p u) = Cert.Spec.var (Cert.Spec.act (rowA x0 x1 x2 p) (vec x3)) := by
  rw [val_main_v58_apply, val_main_v56_apply, val_main_v57_apply, val_main_cst_12_apply, i56, val_main_v55_apply,
    val_main_cst_11_apply]
  have hs : (∑ k : Fin 64, val_main_v54 (F := Ideal) x0 x1 x2 x3 (idx_main_v55 (ix1 p) k))
      = ∑ k : Fin 64, Cert.Spec.cen (Cert.Spec.act (rowA x0 x1 x2 p) (vec x3)) k
          * Cert.Spec.cen (Cert.Spec.act (rowA x0 x1 x2 p) (vec x3)) k :=
    Finset.sum_congr rfl fun k _ => by
      rw [i55, val_main_v54_apply, cen_apply, Ideal.mulf_def]
  rw [hs, Ideal.hostDivf_def, Ideal.ofBits_def, Ideal.ofBits_def, Ideal.ofBits_zero_f32, zero_add]
  unfold Cert.Spec.var
  with_reducible rfl

/-- The column `(variance + ε)^(-1/2)` at row `p`. -/
theorem inv_apply (p : Fin 100000) (u : Fin 1) :
    val_main_v63 (F := Ideal) x0 x1 x2 x3 (ix2 p u)
      = Ideal.rsqrt (Cert.Spec.var (Cert.Spec.act (rowA x0 x1 x2 p) (vec x3)) + Cert.Spec.wEps) := by
  rw [val_main_v63_apply, val_main_v62_apply, val_main_v61_apply, val_main_cst_13_apply, var_apply]
  simp only [Ideal.maximumf_def, Ideal.addf_def, Ideal.subf_def, Ideal.mulf_def, Ideal.hostDivf_def, Ideal.hostUnary_rsqrt_def, Ideal.ofBits_def]

/-- The result at `(p, q)`: the normalised entry `q` of row `p` of the aggregate. -/
theorem result_apply (p : Fin 100000) (q : Fin 64) :
    val_main_v71 (F := Ideal) x0 x1 x2 x3 x4 x5 (ix2 p q)
      = Cert.Spec.normRow (rowA x0 x1 x2 p) (vec x3) (vec x4) (vec x5) q := by
  rw [val_main_v71_apply, val_main_v68_apply, val_main_v65_apply, val_main_v64_apply, val_main_v67_apply,
    val_main_v66_apply, val_main_v70_apply, val_main_v69_apply, i64, i67, i66, i70, i69, cen_apply', inv_apply]
  simp only [Ideal.maximumf_def, Ideal.addf_def, Ideal.subf_def, Ideal.mulf_def, Ideal.hostDivf_def, Ideal.hostUnary_rsqrt_def, Ideal.ofBits_def]
  unfold Cert.Spec.normRow
  with_reducible rfl

/-- The reference's result: the aggregate of the whole product, normalised row by row under the three vectors as rows. -/
theorem result_eq :
    val_main_v71 (F := Ideal) x0 x1 x2 x3 x4 x5
      = Cert.Spec.normRows (R := 100000) (Cert.ReferenceIdeal.Agg.agg (F := Ideal) (Cert.Spec.matProd (R := 100000) x0 x2) x1)
          (Cert.Lib.asRow x3) (Cert.Lib.asRow x4) (Cert.Lib.asRow x5) := by
  funext i
  obtain ⟨p, q, rfl⟩ : ∃ (p : Fin 100000) (q : Fin 64), i = ix2 p q := ⟨i 0, i 1, eq_ix2 i⟩
  rw [result_apply, Cert.Spec.normRows_apply, ← val_main_v7_eq, ← Cert.ReferenceIdeal.Agg.val_main_v43_eq]
  simp only [Cert.Lib.asRow_apply]

end Cert.ReferenceIdeal.RefValue

end
-- ==== Proof.lean ====
/-
  The certificate of a graph-convolution block against its reference: `frame_Kernel ∧ frame_KernelIdeal ∧
  frame_ReferenceIdeal ∧ preserves_Kernel_KernelIdeal ∧ algebraic_KernelIdeal_ReferenceIdeal`.

  The kernel's program computes `h = x · W` in a first pipelined region (block by block, the operands passing through bf16,
  which is the identity on the extended reals), aggregates `h` over the graph's edges with host operations, and in a second
  pipelined region adds the bias, cuts negative entries to zero and normalises every row (mean, variance, `ε`, inverse
  square root, scale, shift). The reference computes `x · W` by one host product, runs the same aggregation, and
  normalises with host operations. On the extended reals both results are one function of the six arguments,
  `normRows (agg (x · W) e) (row b) (row g) (row s)`: a product entry is the same sum over the contracted axis on both
  sides; the aggregation is the same function of `h` and the edge list; and the normalisation of a row is the same
  operations on that row, a block's lane sum against the host's sum from an initial zero. No step needs an entry to be
  finite, so the precondition is never opened. The idealization rewrote nothing, so `preserves` is trivial. The three
  frames are the generated frame certificates of the two kernel programs and the reference's run with its result dropped.
-/
import proofs.«135590_j37769942401557_1_alg».proof.Defs
import proofs.«135590_j37769942401557_1_alg».proof.Proof.Gen.Kernel
import proofs.«135590_j37769942401557_1_alg».proof.Proof.Gen.Kernel.Frame
import proofs.«135590_j37769942401557_1_alg».proof.Proof.Gen.KernelIdeal
import proofs.«135590_j37769942401557_1_alg».proof.Proof.Gen.KernelIdeal.Frame
import proofs.«135590_j37769942401557_1_alg».proof.Proof.Gen.ReferenceIdeal
import proofs.«135590_j37769942401557_1_alg».proof.Proof.Gen.Pre_finite_inputs
import proofs.«135590_j37769942401557_1_alg».proof.Proof.KernelValue
import proofs.«135590_j37769942401557_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote no operation: nothing to state. -/
theorem preserves : Cert.preserves_Kernel_KernelIdeal := trivial

/-- From memories agreeing on the arguments both programs end with the result at the one function `G` of the arguments. -/
theorem algebraic : Cert.algebraic_KernelIdeal_ReferenceIdeal := by
  intro m ρ m' ρ' _ hagree
  refine ⟨fun c => Cert.KernelIdeal.Final.G m c, Cert.KernelIdeal.Final.run m ρ, ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3, a4, a5⟩ := hagree c
  rw [Cert.ReferenceIdeal.ReadP.val_main_v71_eq, Cert.ReferenceIdeal.RefValue.result_eq, a0, a1, a2, a3, a4, a5]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
